-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x128 : Shape := ⟨2, ![128, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x4096 .f32) (main_arg1 : FVec F S128x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4x4096x4096 : Shape := ⟨3, ![4, 4096, 4096]⟩
abbrev S128x128 : Shape := ⟨2, ![128, 128]⟩
abbrev S524288x128 : Shape := ⟨2, ![524288, 128]⟩
abbrev S16384x128 : Shape := ⟨2, ![16384, 128]⟩
abbrev S4096x128 : Shape := ⟨2, ![4096, 128]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S524288x128, .f32⟩
  | .hbm, ⟨3, _⟩ => ⟨S128x128, .bf16⟩
  | .hbm, ⟨4, _⟩ => ⟨S524288x128, .f32⟩
  | .hbm, ⟨5, _⟩ => ⟨S4x4096x4096, .f32⟩
  | .local _ .vmem, ⟨0, _⟩ => ⟨S16384x128, .f32⟩
  | .local _ .vmem, ⟨1, _⟩ => ⟨S16384x128, .f32⟩
  | .local _ .vmem, ⟨2, _⟩ => ⟨S128x128, .bf16⟩
  | .local _ .vmem, ⟨3, _⟩ => ⟨S16384x128, .f32⟩
  | .local _ .vmem, ⟨4, _⟩ => ⟨S16384x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c4096_i32 : BitVec 32 := 4096#32
  let v2 : BitVec 32 := Scalar.muli c0_i32 c4096_i32
  v2
def k0_off1 (c0_i32 : BitVec 32) : Fin 2 → Nat :=
  let c4096_i32 : BitVec 32 := 4096#32
  let v2 : BitVec 32 := Scalar.muli c0_i32 c4096_i32
  let v3 : BitVec 32 := v2
  let v4 : Index := Scalar.indexCast v3
  let c0_1 : Index := 0#32
  ![v4.toNat, 0]
def k0_mult2 : BitVec 32 :=
  let c1_i32 : BitVec 32 := 1#32
  let c4096_i32_3 : BitVec 32 := 4096#32
  let v11 : BitVec 32 := Scalar.muli c1_i32 c4096_i32_3
  v11
def k0_mult3 : BitVec 32 :=
  let c2_i32 : BitVec 32 := 2#32
  let c4096_i32_7 : BitVec 32 := 4096#32
  let v20 : BitVec 32 := Scalar.muli c2_i32 c4096_i32_7
  v20
def k0_mult4 : BitVec 32 :=
  let c3_i32 : BitVec 32 := 3#32
  let c4096_i32_11 : BitVec 32 := 4096#32
  let v29 : BitVec 32 := Scalar.muli c3_i32 c4096_i32_11
  v29
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S524288x128 : S4x4096x4096.ShapeCasts S524288x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S4096x128 : 0 < S4096x128.numel
  shapeCasts_S4096x128_S4096x128 : S4096x128.ShapeCasts S4096x128
  shapeCasts_S524288x128_S4x4096x4096 : S524288x128.ShapeCasts S4x4096x4096
  dot_S4096x128_S128x128_S4096x128_1_0_0_1_n_n_wf : DotDims.WF S4096x128 S128x128 S4096x128 [1] [0] [0] [1] [] []
  hrank0 : 0 < grid0.rank
  k0_mult1_dvd : 4096 ∣ k0_mult1.toNat
  k0_off1_inb : ∀ (r : Fin 4), ∀ a, (k0_off1 (BitVec.ofNat 32 r.val)) a + S4096x128.size a ≤ S16384x128.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S524288x128.size a
  hwx0_2 : ∀ i : grid0.Coords, EltTy.bits .f32 = 32 ∨ (Rect.block (s := S524288x128) S16384x128.size (cc0_transform_2 i) (hinb0_2 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S4x4096x4096 : Shape := ⟨3, ![4, 4096, 4096]⟩
abbrev S128x128 : Shape := ⟨2, ![128, 128]⟩
abbrev S16384x32x128 : Shape := ⟨3, ![16384, 32, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S16384x32x128, .f32⟩
  | .hbm, ⟨3, _⟩ => ⟨S16384x32x128, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x4096x4096_S16384x32x128 : S4x4096x4096.ShapeCasts S16384x32x128
  shapeCasts_S16384x32x128_S4x4096x4096 : S16384x32x128.ShapeCasts S4x4096x4096
  dot_S16384x32x128_S128x128_S16384x32x128_2_0_01_1_n_n_wf : DotDims.WF S16384x32x128 S128x128 S16384x32x128 [2] [0] [0, 1] [1] [] []

variable [Facts₀]

def dot_S16384x32x128_S128x128_S16384x32x128_2_0_01_1_n_n : DotDims S16384x32x128 S128x128 S16384x32x128 where
  lhsContracting := [2]
  rhsContracting := [0]
  lhsNonContracting := [0, 1]
  rhsNonContracting := [1]
  lhsBatch := []
  rhsBatch := []
  wf := dot_S16384x32x128_S128x128_S16384x32x128_2_0_01_1_n_n_wf

class Facts : Prop extends Facts₀ where

variable [Facts]
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.Body.lean ====
/-
  What one grid point leaves in its output block.

  The kernel body holds a block of 16384 rows of the flattened input and the 128 x 128 matrix. It cuts the block into
  four slabs of 4096 rows, multiplies each slab by the matrix on the matrix unit, starting from a zero accumulator, and
  stores each product over the same 4096 rows of the output block. On the extended reals a matrix product is the plain
  sum of products (the narrowing of the operands to bf16 is the identity there), so every slab's product is the
  restriction to its rows of ONE function of the block: entry (p, q) is the sum over k of block (p, k) * matrix (k, q).
  The four stores tile the output block, hence the block ends holding that function.
-/
import proofs.«139958_j22746146800067_2_alg».proof.Proof.Gen.KernelIdeal.Frame
import proofs.«139958_j22746146800067_2_alg».proof.Proof.LibMatmulPlain
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

/-- The zero offsets, as a constant function. -/
theorem hz : (![0, 0] : Fin 2 → Nat) = fun _ => 0 := funext fun a => by fin_cases a <;> rfl

/-- One slab of 4096 rows times the 128 x 128 matrix, into the zero accumulator, on the extended reals: the entry at
    row p, column q is the sum over k of slab (p, k) times matrix (k, q). The narrowing of the slab to bf16 and
    the two same-shape casts are the identity there. -/
theorem slab_apply (w : FVec Ideal S128x128 .bf16) (v : FVec Ideal S4096x128 .f32) (p : Fin 4096) (q : Fin 128) :
    matmul (F := Ideal) dot_S4096x128_S128x128_S4096x128_1_0_0_1_n_n none
        (truncf .bf16 (shapeCast S4096x128 v shapeCasts_S4096x128_S4096x128) bitsLt_bf16_f32)
        (shapeCast S128x128 w shapeCasts_S128x128_S128x128) (constant S4096x128 .f32 0x00000000#32) (ix2 p q)
      = ∑ k : Fin 128, v (ix2 p k) * w (ix2 k q) := by
  rw [shapeCast_self, shapeCast_self]
  exact Cert.LibMatmulPlain.matmul_plain_zero_apply (M := 4096) (K := 128) (N := 128) none (truncf .bf16 v bitsLt_bf16_f32) w p q

/-- A slab read out of the 16384-row block through a rectangle of 4096 rows starting at row off 0, column 0:
    its row p is row off 0 + p of the block. -/
theorem slab_read (x0 : Vec Ideal S16384x128 .f32) (x1 : Vec Ideal S128x128 .bf16) (off : Fin 2 → ℕ)
    (inb : ∀ a, off a + S4096x128.size a ≤ S16384x128.size a) (h1 : off 1 = 0) (x : S4096x128.Idx) :
    (∑ k : Fin 128, View.ld x0 (Rect.unit (s := S16384x128) off S4096x128.size inb) (ix2 (x 0) k) * x1 (ix2 k (x 1)))
      = ∑ k : Fin 128, x0 (ix2 ((Rect.unit (s := S16384x128) off S4096x128.size inb).emb x 0) k)
          * x1 (ix2 k ((Rect.unit (s := S16384x128) off S4096x128.size inb).emb x 1)) := by
  refine Finset.sum_congr rfl fun k _ => ?_
  have e0 : (Rect.unit (s := S16384x128) off S4096x128.size inb).emb (ix2 (x 0) k) = ix2 ((Rect.unit (s := S16384x128) off S4096x128.size inb).emb x 0) k :=
    funext fun a => Fin.ext (by
      match a with
      | ⟨0, _⟩ => rfl
      | ⟨1, _⟩ => show off 1 + 1 * k.val = k.val; omega)
  have e1 : (Rect.unit (s := S16384x128) off S4096x128.size inb).emb x 1 = x 1 :=
    Fin.ext (by show off 1 + 1 * (x 1).val = (x 1).val; omega)
  show x0 ((Rect.unit (s := S16384x128) off S4096x128.size inb).emb (ix2 (x 0) k)) * _ = _
  rw [e0, e1]
  rfl

/-- The four payloads are one slab product each (the printed body names them separately). -/
theorem pay3_apply (w : Vec Ideal S128x128 .bf16) (v : Vec Ideal S4096x128 .f32) (x : S4096x128.Idx) :
    k0_pay3 (F := Ideal) w v x = ∑ k : Fin 128, v (ix2 (x 0) k) * w (ix2 k (x 1)) := by
  rw [eq_ix2 x]; exact slab_apply w v (x 0) (x 1)
theorem pay4_apply (w : Vec Ideal S128x128 .bf16) (v : Vec Ideal S4096x128 .f32) (x : S4096x128.Idx) :
    k0_pay4 (F := Ideal) w v x = ∑ k : Fin 128, v (ix2 (x 0) k) * w (ix2 k (x 1)) := by
  rw [eq_ix2 x]; exact slab_apply w v (x 0) (x 1)
theorem pay5_apply (w : Vec Ideal S128x128 .bf16) (v : Vec Ideal S4096x128 .f32) (x : S4096x128.Idx) :
    k0_pay5 (F := Ideal) w v x = ∑ k : Fin 128, v (ix2 (x 0) k) * w (ix2 k (x 1)) := by
  rw [eq_ix2 x]; exact slab_apply w v (x 0) (x 1)
theorem pay1_apply (w : Vec Ideal S128x128 .bf16) (v : Vec Ideal S4096x128 .f32) (x : S4096x128.Idx) :
    k0_pay1 (F := Ideal) (k0_pay2 w) (k0_pay6 v) (constant S4096x128 .f32 0x00000000#32) x
      = ∑ k : Fin 128, v (ix2 (x 0) k) * w (ix2 k (x 1)) := by
  rw [eq_ix2 x]; exact slab_apply w v (x 0) (x 1)

/-- What the body leaves in the output block: the whole 16384-row input block times the matrix. The body computes it
    as four slabs of 4096 rows, each stored over its own rows; every slab is the restriction of the one product. -/
theorem out_apply (c : Dev nD) (i : grid0.Coords) (a1 : Memref sig .tc .vmem S16384x128 .f32) (h1 : a1.IsWhole)
    (a2 : Memref sig .tc .vmem S128x128 .bf16) (h2 : a2.IsWhole) (a3 : Memref sig .tc .vmem S16384x128 .f32) (h3 : a3.IsWhole)
    (x0 : Vec Ideal S16384x128 .f32) (x1 : Vec Ideal S128x128 .bf16) (y : S16384x128.Idx) :
    out0_A_2 (F := Ideal) c i a1 h1 a2 h2 a3 h3 x0 x1 y = ∑ k : Fin 128, x0 (ix2 (y 0) k) * x1 (ix2 k (y 1)) := by
  unfold out0_A_2
  rw [View.read_writes_eq_canon _ _ _ (cover0_A_2 c i a1 h1 a2 h2 a3 h3 x0 x1)]
  refine View.canon_apply_of_pieces (fun y : S16384x128.Idx => ∑ k : Fin 128, x0 (ix2 (y 0) k) * x1 (ix2 k (y 1))) _ ?_ y
    (cover0_A_2 c i a1 h1 a2 h2 a3 h3 x0 x1 y)
  unfold kernelRun0_A
  dsimp only
  sl_unfold_words
  intro p hp
  simp only [List.mem_cons, List.not_mem_nil, or_false] at hp
  simp only [View.readAt_eq_ld, h1.read_unread, h2.read_unread, View.ld_unit_zero (S := S128x128) hz] at hp
  rcases hp with rfl | rfl | rfl | rfl
  · intro x; exact (pay1_apply x1 _ x).trans (slab_read x0 x1 _ _ rfl x)
  · intro x; exact (pay5_apply x1 _ x).trans (slab_read x0 x1 _ _ rfl x)
  · intro x; exact (pay4_apply x1 _ x).trans (slab_read x0 x1 _ _ rfl x)
  · intro x; exact (pay3_apply x1 _ x).trans (slab_read x0 x1 _ _ rfl x)

end Cert.KernelIdeal.Body
end
-- ==== Proof.Spec.lean ====
/-
  The mathematics of the claim, stated without either program.

  The input x has shape [4, 4096, 4096]; its last axis is cut into 32 chunks of 128 entries, and every chunk, read as a
  row vector, is multiplied by the one 128 x 128 matrix r. Entry (a, b, c) of the result is therefore the sum over k of
  x (a, b, 128 * (c / 128) + k) * r (k, c % 128): `chunks`.

  Flattening x row-major to a matrix of 524288 rows of 128 entries turns every chunk into one row, so the same result
  is the row-major un-flattening of the plain product of that matrix with r (`rows`): `cast_rows_cast`. No law of
  arithmetic is used: the two are the same sum of the same products, term by term.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- The input's shape, the matrix's shape, and the shape of the input flattened to rows of 128. -/
abbrev Cube : Shape := ⟨3, ![4, 4096, 4096]⟩
abbrev Mat : Shape := ⟨2, ![128, 128]⟩
abbrev Flat : Shape := ⟨2, ![524288, 128]⟩

/-- Every row of a [524288, 128] matrix times the 128 x 128 matrix: entry (p, q) is the sum over k of X (p, k) R (k, q). -/
def rows (X : Flat.Idx → EReal) (R : Mat.Idx → EReal) : Flat.Idx → EReal :=
  fun j => ∑ k : Fin 128, X (ix2 (j 0) k) * R (ix2 k (j 1))

/-- A block of rows of the product, from a block of rows of the matrix: if row p of the block b0 is row j 0 of X and
    column q of b1 is column j 1 of R, the block's product at (p, q) is the whole product at j. -/
theorem rows_of_block (X : Flat.Idx → EReal) (R : Mat.Idx → EReal) (b0 : (⟨2, ![16384, 128]⟩ : Shape).Idx → EReal)
    (b1 : Mat.Idx → EReal) (p : Fin 16384) (q : Fin 128) (j : Flat.Idx)
    (h0 : ∀ k : Fin 128, b0 (ix2 p k) = X (ix2 (j 0) k)) (h1 : ∀ k : Fin 128, b1 (ix2 k q) = R (ix2 k (j 1))) :
    (∑ k : Fin 128, b0 (ix2 p k) * b1 (ix2 k q)) = rows X R j :=
  Finset.sum_congr rfl fun k _ => by rw [h0 k, h1 k]

/-- The k-th entry of the chunk of 128 that holds position i: same leading coordinates, last coordinate 128 * (c / 128) + k. -/
abbrev src (i : Cube.Idx) (k : Fin 128) : Cube.Idx :=
  ix3 (i 0) (i 1) ⟨(i 2).val / 128 * 128 + k.val, by
    have h2 : (i 2).val < 4096 := (i 2).isLt
    have hk : k.val < 128 := k.isLt
    omega⟩

/-- The place of position i inside its chunk: c % 128. -/
abbrev col (i : Cube.Idx) : Fin 128 := ⟨(i 2).val % 128, Nat.mod_lt _ (by decide)⟩

/-- Every chunk of 128 along the last axis, as a row vector, times the matrix. -/
def chunks (x : Cube.Idx → EReal) (r : Mat.Idx → EReal) : Cube.Idx → EReal :=
  fun i => ∑ k : Fin 128, x (src i k) * r (ix2 k (col i))

/-- Flatten, multiply every row by the matrix, un-flatten: the chunk-wise product. Position (a, b, c) of the cube has
    row-major position f = (a * 4096 + b) * 4096 + c, which in the flat matrix is row f / 128, column f % 128 = c % 128;
    and entry k of that row is position (f / 128) * 128 + k of the cube, which is (a, b, 128 * (c / 128) + k). -/
theorem cast_rows_cast (x : Cube.Idx → EReal) (r : Mat.Idx → EReal) (h1 : Cube.ShapeCasts Flat) (h2 : Flat.ShapeCasts Cube) :
    shapeCast Cube (rows (shapeCast Flat x h1) r) h2 = chunks x r := by
  funext i
  have h0 : (i 0).val < 4 := (i 0).isLt
  have h1' : (i 1).val < 4096 := (i 1).isLt
  have h2' : (i 2).val < 4096 := (i 2).isLt
  have hrow : (((i 0).val * 4096 + (i 1).val) * 4096 + (i 2).val) / 128 < 524288 := by omega
  rw [shapeCast_apply _ h2 i
    (ix2 (⟨(((i 0).val * 4096 + (i 1).val) * 4096 + (i 2).val) / 128, hrow⟩ : Fin 524288) (col i))
    (by rewrite [Shape.rowMajor_val_two, Shape.rowMajor_val_three]
        show (((i 0).val * 4096 + (i 1).val) * 4096 + (i 2).val) / 128 * 128 + (i 2).val % 128
          = ((i 0).val * 4096 + (i 1).val) * 4096 + (i 2).val
        omega)]
  show (∑ k : Fin 128, shapeCast Flat x h1 (ix2 (⟨(((i 0).val * 4096 + (i 1).val) * 4096 + (i 2).val) / 128, hrow⟩ : Fin 524288) k)
      * r (ix2 k (col i))) = ∑ k : Fin 128, x (src i k) * r (ix2 k (col i))
  refine Finset.sum_congr rfl fun k _ => ?_
  have hk : k.val < 128 := k.isLt
  rw [shapeCast_apply x h1 _ (src i k)
    (by rewrite [Shape.rowMajor_val_three, Shape.rowMajor_val_two]
        show ((i 0).val * 4096 + (i 1).val) * 4096 + ((i 2).val / 128 * 128 + k.val)
          = (((i 0).val * 4096 + (i 1).val) * 4096 + (i 2).val) / 128 * 128 + k.val
        omega)]

end Cert.Spec

end
-- ==== Proof.Blocks.lean ====
/-
  From blocks to the array.

  The grid has 32 points. Point t reads rows 16384 t … 16384 t + 16383 of the flattened input and the whole matrix,
  and writes the same rows of the output array. By the body's value (one block of rows times the matrix) what point t
  writes back is block t of ONE function of the region-entry arrays: the product of the whole flattened input with the
  matrix. The 32 blocks tile the 524288 rows, so after the last point the output array is that product.
-/
import proofs.«139958_j22746146800067_2_alg».proof.Proof.Body
import proofs.«139958_j22746146800067_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ) (ρ : Dev nD → PrngReg)

/-- The index maps over the 32 grid points: point t takes block t of the flattened input and writes block t of the
    output (rows 16384 t to 16384 t + 16383, all 128 columns); the matrix is its one block at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole flattened input with the matrix. -/
theorem flushed_eq (c : Dev nD) (t : Fin cfg0.N) :
    (dats m 0 c).flushed 2 t = ((cfg0.win 2).blk t).view.read (Elt Ideal) (rows (V m c main_v0) (V m c main_v1)) := by
  show (cfg0.win 2).cut (grid0.coords t) ((dats m 0 c).after 2 t) = _
  rw [after0_2]
  unfold outsAt0
  obtain ⟨e0, e1, e2, e3, e4, e5⟩ := idx_facts t
  funext y
  show out0_A_2 c (grid0.coords t) (ms0_0 t) (hs0_0 t) (ms0_1 t) (hs0_1 t) (ms0_2 t) (hs0_2 t) (iblk m c 0 t) (iblk m c 1 t) y
    = rows (V m c main_v0) (V m c main_v1) (((cfg0.win 2).blk t).view.emb y)
  refine (Body.out_apply c (grid0.coords t) (ms0_0 t) (hs0_0 t) (ms0_1 t) (hs0_1 t) (ms0_2 t) (hs0_2 t) (iblk m c 0 t) (iblk m c 1 t) y).trans ?_
  refine rows_of_block (V m c main_v0) (V m c main_v1) (iblk m c 0 t) (iblk m c 1 t) (y 0) (y 1) _ (fun k => ?_) (fun k => ?_)
  · have hk : k.val < 128 := k.isLt
    show V m c main_v0 (((cfg0.win 0).blk t).view.emb (ix2 (y 0) k)) = _
    refine congrArg (V m c main_v0) (funext fun a => Fin.ext ?_)
    match a with
    | ⟨0, _⟩ => show win0_0.index t (0 : Fin 2) * 16384 + 1 * (y 0).val = win0_2.index t (0 : Fin 2) * 16384 + 1 * (y 0).val; omega
    | ⟨1, _⟩ => show win0_0.index t (1 : Fin 2) * 128 + 1 * k.val = k.val; omega
  · have hk : k.val < 128 := k.isLt
    show V m c main_v1 (((cfg0.win 1).blk t).view.emb (ix2 k (y 1))) = _
    refine congrArg (V m c main_v1) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- A position of the output array is in point t's block iff each coordinate is in the block's range on its axis. -/
theorem mem_blk (t : Fin cfg0.N) (i : S524288x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v2).slice (win0_2.rect t)).set ↔ _
  rw [View.set_slice_whole, Rect.mem_set_unit]
  exact Iff.rfl

/-- The 32 blocks of 16384 rows tile the 524288 rows: row p is in the block of point p / 16384. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  have hN : cfg0.N = 32 := N_0
  obtain ⟨t, ht⟩ : ∃ t : Fin cfg0.N, t.val = (i 0).val / 16384 := ⟨⟨(i 0).val / 16384, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 128 ≤ (i 1).val ∧ (i 1).val < win0_2.index t (1 : Fin 2) * 128 + 128; omega

/-- So the output array ends holding the product of the whole flattened input, as the region found it, with the matrix. -/
theorem final (c : Dev nD) : (dats m 0 c).arrAt 2 cfg0.N = rows (V m c main_v0) (V m c main_v1) :=
  (dats m 0 c).arrAt_eq_of_cover 2 (rows (V m c main_v0) (V m c main_v1)) (fun t _ => flushed_eq m c t) (cover)

end Cert.KernelIdeal.Blocks
end
-- ==== Proof.HostSide.lean ====
/-
  The host lines around the kernel call.

  Before the call the program flattens x row-major to 524288 rows of 128 entries, narrows the matrix to bf16 (the
  identity on the extended reals) and copies the flattened x into the buffer the call writes its result over. After
  the call it un-flattens the result to the shape of x. So the array the call's input window reads is the flattened x,
  the array its matrix window reads is r itself, and the program's result is the un-flattening of whatever the call's
  output array ends holding.
-/
import proofs.«139958_j22746146800067_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostSide

open Cert.KernelIdeal Cert.KernelIdeal.Gen

variable (m : (ℓ : Loc nD τ sig) → Buf (Elt Ideal) ℓ) (ρ : Dev nD → PrngReg)

/-- The call's input window reads the row-major flattening of x. -/
theorem V_main_v0 (c : Dev nD) : (V m c main_v0 : S524288x128.Idx → Elt Ideal .f32)
    = shapeCast S524288x128 (m ((c : Thread nD τ).loc main_arg0)) shapeCasts_S4x4096x4096_S524288x128 := by
  show StableHlo.after hostOps0 (fun b => m (c, b)) (Proc.devRef .tc main_v0) = _
  after_results
  rfl

/-- The call's matrix window reads r: the narrowing to bf16 changes no extended real. -/
theorem V_main_v1 (c : Dev nD) : (V m c main_v1 : S128x128.Idx → EReal)
    = (m ((c : Thread nD τ).loc main_arg1) : S128x128.Idx → EReal) := by
  show StableHlo.after hostOps0 (fun b => m (c, b)) (Proc.devRef .tc main_v1) = _
  after_results
  rfl

/-- The program's result is the un-flattening of the call's output array as the grid leaves it. -/
theorem tail_eq (c : Dev nD) : (Pipeline.afterTail₀ cfgs (dats m) 0 (V0 m) [hostOps1] c main_v3 : S4x4096x4096.Idx → Elt Ideal .f32)
    = shapeCast S4x4096x4096 ((dats m 0 c).arrAt 2 cfg0.N) shapeCasts_S524288x128_S4x4096x4096 := by
  unfold Pipeline.afterTail₀
  show StableHlo.after hostOps1 _ (Proc.devRef .tc main_v3) = _
  after_results
  have e := Pipeline.withArrays_arr spec0 launch0.win.arr_inj c (V0 m c) (fun w => (dats m 0 c).arrAt w (cfgs 0).N) 2
  funext i
  show shapeCast S4x4096x4096 (Pipeline.withArrays spec0 c (V0 m c) (fun w => (dats m 0 c).arrAt w (cfgs 0).N)
      (Proc.devRef .tc (Pipeline.arrRef spec0 2))) shapeCasts_S524288x128_S4x4096x4096 i = _
  rw [e]

end Cert.KernelIdeal.HostSide
end
-- ==== Proof.Result.lean ====
/-
  The kernel program's run, read as a value: its result is the chunk-wise product of its arguments.

  The call's output array ends as (flattened x) times r, row by row; the last host line un-flattens it; and
  un-flattening the row-wise product of the flattening is the chunk-wise product (the flattening sends every chunk of
  128 along the last axis to one row).
-/
import proofs.«139958_j22746146800067_2_alg».proof.Proof.Blocks
import proofs.«139958_j22746146800067_2_alg».proof.Proof.HostSide
import proofs.«139958_j22746146800067_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Spec

variable (m : (ℓ : Loc nD τ sig) → Buf (Elt Ideal) ℓ) (ρ : Dev nD → PrngReg)

/-- What the program's result buffer holds after the lines that follow the call. -/
theorem result_eq (c : Dev nD) :
    (Pipeline.afterTail₀ cfgs (dats m) 0 (V0 m) [hostOps1] c main_v3 : S4x4096x4096.Idx → Elt Ideal .f32)
      = chunks (m ((c : Thread nD τ).loc main_arg0)) (m ((c : Thread nD τ).loc main_arg1)) := by
  rw [HostSide.tail_eq m c, Blocks.final m c, HostSide.V_main_v0 m c, HostSide.V_main_v1 m c]
  exact cast_rows_cast _ _ _ _

/-- Every weakly fair execution ends with the result at the chunk-wise product of the arguments, and the arguments as
    they were. -/
theorem run : θ_run defs (onTc (τ := τ) (main (F := Ideal))) ⟨m, fun _ => 0, ρ⟩ fun r => ∀ c : Dev nD,
      r.2.mem ((c.tc : Thread nD τ).loc main_v3)
        = chunks (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result
end
-- ==== Proof.RefSide.lean ====
/-
  The reference reshapes x to [16384, 32, 128] — leading coordinate the flat row index divided by 32, middle coordinate
  the chunk number, last coordinate the place in the chunk —, contracts the last axis against the first axis of r, and
  reshapes back. Read at a position of the cube through the three generated read-at-an-index lemmas, that is the sum
  over k of x at the k-th entry of the position's chunk times r (k, place in the chunk): the chunk-wise product.
-/
import proofs.«139958_j22746146800067_2_alg».proof.Proof.Gen.ReferenceIdeal.Run
import proofs.«139958_j22746146800067_2_alg».proof.Proof.Gen.ReferenceIdeal.Read
import proofs.«139958_j22746146800067_2_alg».proof.Proof.Spec

noncomputable section

namespace Cert.ReferenceIdeal.RefSide

open Cert.ReferenceIdeal Cert.ReferenceIdeal.Read Idealize.ShloMosaic Idealize.ShloMosaic.ValueIdx Cert.Spec

/-- The reference's result is the chunk-wise product of its arguments. -/
theorem ref_eq_chunks (x : (⟨S4x4096x4096, .f32⟩ : BufTy).Contents (Elt Ideal)) (r : (⟨S128x128, .f32⟩ : BufTy).Contents (Elt Ideal)) :
    val_main_v2 (F := Ideal) x r = chunks x r := by
  funext i
  have h0 : (i 0).val < 4 := (i 0).isLt
  have h1 : (i 1).val < 4096 := (i 1).isLt
  have h2 : (i 2).val < 4096 := (i 2).isLt
  rw [val_main_v2_apply, val_main_v1_apply]
  show _ = ∑ k : Fin 128, x (src i k) * r (ix2 k (col i))
  refine Finset.sum_congr rfl fun k _ => ?_
  have hk : k.val < 128 := k.isLt
  rw [val_main_v0_apply]
  have el : idx_main_v0 (lidx_main_v1 (idx_main_v2 i) k) = src i k := funext fun a => Fin.ext (by
    match a with
    | ⟨0, _⟩ => show (((((i 0).val * 4096 + (i 1).val) * 4096 + (i 2).val) / 4096 * 32 + (((i 0).val * 4096 + (i 1).val) * 4096 + (i 2).val) / 128 % 32) * 128 + k.val) / 16777216 = (i 0).val; omega
    | ⟨1, _⟩ => show (((((i 0).val * 4096 + (i 1).val) * 4096 + (i 2).val) / 4096 * 32 + (((i 0).val * 4096 + (i 1).val) * 4096 + (i 2).val) / 128 % 32) * 128 + k.val) / 4096 % 4096 = (i 1).val; omega
    | ⟨2, _⟩ => show (((((i 0).val * 4096 + (i 1).val) * 4096 + (i 2).val) / 4096 * 32 + (((i 0).val * 4096 + (i 1).val) * 4096 + (i 2).val) / 128 % 32) * 128 + k.val) % 4096 = (i 2).val / 128 * 128 + k.val; omega)
  have er : ridx_main_v1 (idx_main_v2 i) k = ix2 k (col i) := funext fun a => Fin.ext (by
    match a with
    | ⟨0, _⟩ => rfl
    | ⟨1, _⟩ => show (((i 0).val * 4096 + (i 1).val) * 4096 + (i 2).val) % 128 = (i 2).val % 128; omega)
  rw [el, er]

end Cert.ReferenceIdeal.RefSide

end
-- ==== Proof.lean ====
/-
  The claim: the Pallas kernel that rotates every chunk of 128 entries of the last axis of x : [4, 4096, 4096] by the
  128 x 128 matrix r — computed by flattening x to 524288 rows of 128, multiplying 16384 rows at a time (four slabs of
  4096 rows per grid point) by r on the matrix unit, and un-flattening — equals, over the extended reals, jnp's
  reshape to [16384, 32, 128], contraction of the last axis with r, and reshape back.

  Both are the chunk-wise product (Spec.lean `chunks`): entry (a, b, c) is the sum over k of
  x (a, b, 128 (c / 128) + k) r (k, c % 128). On the extended reals a matrix product is the plain sum of products
  whoever computes it and in whatever tiling, and a change of float format is the identity, so the two sides are the
  same sum of the same terms: no law of arithmetic beyond that is used, and the finiteness of the inputs is not needed.

  The three frames are the generated ones (the reference's is its generated run with the result dropped); the
  idealization rewrote nothing, so `preserves` is trivial.
-/
import proofs.«139958_j22746146800067_2_alg».proof.Defs
import proofs.«139958_j22746146800067_2_alg».proof.Proof.Gen.Kernel
import proofs.«139958_j22746146800067_2_alg».proof.Proof.Gen.Kernel.Skeleton
import proofs.«139958_j22746146800067_2_alg».proof.Proof.Gen.Kernel.Launch
import proofs.«139958_j22746146800067_2_alg».proof.Proof.Gen.Kernel.Points
import proofs.«139958_j22746146800067_2_alg».proof.Proof.Gen.Kernel.Frame
import proofs.«139958_j22746146800067_2_alg».proof.Proof.Gen.KernelIdeal
import proofs.«139958_j22746146800067_2_alg».proof.Proof.Gen.KernelIdeal.Skeleton
import proofs.«139958_j22746146800067_2_alg».proof.Proof.Gen.KernelIdeal.Launch
import proofs.«139958_j22746146800067_2_alg».proof.Proof.Gen.KernelIdeal.Points
import proofs.«139958_j22746146800067_2_alg».proof.Proof.Gen.KernelIdeal.Frame
import proofs.«139958_j22746146800067_2_alg».proof.Proof.Gen.ReferenceIdeal
import proofs.«139958_j22746146800067_2_alg».proof.Proof.Gen.ReferenceIdeal.Run
import proofs.«139958_j22746146800067_2_alg».proof.Proof.Gen.ReferenceIdeal.Read
import proofs.«139958_j22746146800067_2_alg».proof.Proof.Gen.Pre_finite_inputs
import proofs.«139958_j22746146800067_2_alg».proof.Proof.Result
import proofs.«139958_j22746146800067_2_alg».proof.Proof.RefSide
import Idealize.ShloMosaic.Adequacy
import Idealize.ShloMosaic.Init

noncomputable section

namespace Cert.Proof

open Idealize.ShloMosaic Idealize.SL.Sem

/-- The word-level kernel runs, faults nowhere and leaves its arguments alone: the generated frame. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the chunk-wise product of their (agreeing) arguments. -/
theorem algebraic : Cert.algebraic_KernelIdeal_ReferenceIdeal := by
  intro m ρ m' ρ' _ hagree
  refine ⟨fun c => Cert.Spec.chunks (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefSide.ref_eq_chunks _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
